-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x19x512x512 : Shape := ⟨4, ![8, 19, 512, 512]⟩
abbrev S8x512x512 : Shape := ⟨3, ![8, 512, 512]⟩
abbrev S_ : Shape := ⟨0, ![]⟩

class Facts : Prop where
  bcast_S_S8x19x512x512 : S_.BroadcastsInDim S8x19x512x512 (![] : Fin 0 → Fin S8x19x512x512.rank)
  reducesTo_S8x19x512x512_S_d0_1_2_3 : S8x19x512x512.ReducesTo [0, 1, 2, 3] S_
  h_S_ : 0 < S_.numel

variable [Facts]

def fn {F : FTy → Type} [FloatOps F] (main_arg0 : FVec F S8x19x512x512 .f32) (main_arg1 : IVec S8x512x512 32) : IVec S_ 1 :=
  let main_v0 : FVec F S8x19x512x512 .f32 := Host.absf main_arg0
  let main_cst : FVec F S_ .f32 := constant S_ .f32 0x7F800000#32
  let main_v1 : FVec F S8x19x512x512 .f32 := broadcastInDim S8x19x512x512 ![] bcast_S_S8x19x512x512 main_cst
  let main_v2 : IVec S8x19x512x512 1 := cmpf .olt main_v0 main_v1
  let main_c : IVec S_ 1 := constantI S_ 1 1#1
  let main_v3 : IVec S_ 1 := (fun x v => Host.reduce IntOp.andi x v reducesTo_S8x19x512x512_S_d0_1_2_3 h_S_) main_v2 main_c
  main_v3
-- ==== Kernel.lean ====
abbrev S8x19x512x512 : Shape := ⟨4, ![8, 19, 512, 512]⟩
abbrev S8x512x512 : Shape := ⟨3, ![8, 512, 512]⟩
abbrev S8x8x19 : Shape := ⟨3, ![8, 8, 19]⟩
abbrev S8x19x64x512 : Shape := ⟨4, ![8, 19, 64, 512]⟩
abbrev S8x64x512 : Shape := ⟨3, ![8, 64, 512]⟩
abbrev S1x8x19 : Shape := ⟨3, ![1, 8, 19]⟩
abbrev S8x1x64x512 : Shape := ⟨4, ![8, 1, 64, 512]⟩
abbrev S8x19 : Shape := ⟨2, ![8, 19]⟩
abbrev S_ : Shape := ⟨0, ![]⟩
abbrev S19 : Shape := ⟨1, ![19]⟩

abbrev nBuf : Space → Nat
  | .hbm => 34
  | .vmem => 10
  | .smem => 0
  | _ => 0

abbrev bufTy : (tb : Table) → Fin (tcTables nBuf tb) → BufTy
  | .hbm, ⟨0, _⟩ => ⟨S8x19x512x512, .f32⟩
  | .hbm, ⟨1, _⟩ => ⟨S8x512x512, .i32⟩
  | .hbm, ⟨2, _⟩ => ⟨S8x8x19, .f32⟩
  | .hbm, ⟨3, _⟩ => ⟨S8x8x19, .f32⟩
  | .hbm, ⟨4, _⟩ => ⟨S8x8x19, .f32⟩
  | .hbm, ⟨5, _⟩ => ⟨S_, .f32⟩
  | .hbm, ⟨6, _⟩ => ⟨S8x19, .f32⟩
  | .hbm, ⟨7, _⟩ => ⟨S_, .f32⟩
  | .hbm, ⟨8, _⟩ => ⟨S8x19, .f32⟩
  | .hbm, ⟨9, _⟩ => ⟨S_, .f32⟩
  | .hbm, ⟨10, _⟩ => ⟨S8x19, .f32⟩
  | .hbm, ⟨11, _⟩ => ⟨S_, .f32⟩
  | .hbm, ⟨12, _⟩ => ⟨S8x19, .f32⟩
  | .hbm, ⟨13, _⟩ => ⟨S8x19, .f32⟩
  | .hbm, ⟨14, _⟩ => ⟨S_, .f32⟩
  | .hbm, ⟨15, _⟩ => ⟨S8x19, .f32⟩
  | .hbm, ⟨16, _⟩ => ⟨S8x19, .f32⟩
  | .hbm, ⟨17, _⟩ => ⟨S8x19, .f32⟩
  | .hbm, ⟨18, _⟩ => ⟨S_, .f32⟩
  | .hbm, ⟨19, _⟩ => ⟨S8x19, .f32⟩
  | .hbm, ⟨20, _⟩ => ⟨S8x19, .f32⟩
  | .hbm, ⟨21, _⟩ => ⟨S8x19, .f32⟩
  | .hbm, ⟨22, _⟩ => ⟨S_, .f32⟩
  | .hbm, ⟨23, _⟩ => ⟨S8x19, .f32⟩
  | .hbm, ⟨24, _⟩ => ⟨S8x19, .f32⟩
  | .hbm, ⟨25, _⟩ => ⟨S_, .f32⟩
  | .hbm, ⟨26, _⟩ => ⟨S19, .f32⟩
  | .hbm, ⟨27, _⟩ => ⟨S_, .f32⟩
  | .hbm, ⟨28, _⟩ => ⟨S19, .f32⟩
  | .hbm, ⟨29, _⟩ => ⟨S19, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .local _ .vmem, ⟨0, _⟩ => ⟨S8x19x64x512, .f32⟩
  | .local _ .vmem, ⟨1, _⟩ => ⟨S8x19x64x512, .f32⟩
  | .local _ .vmem, ⟨2, _⟩ => ⟨S8x64x512, .i32⟩
  | .local _ .vmem, ⟨3, _⟩ => ⟨S8x64x512, .i32⟩
  | .local _ .vmem, ⟨4, _⟩ => ⟨S1x8x19, .f32⟩
  | .local _ .vmem, ⟨5, _⟩ => ⟨S1x8x19, .f32⟩
  | .local _ .vmem, ⟨6, _⟩ => ⟨S1x8x19, .f32⟩
  | .local _ .vmem, ⟨7, _⟩ => ⟨S1x8x19, .f32⟩
  | .local _ .vmem, ⟨8, _⟩ => ⟨S1x8x19, .f32⟩
  | .local _ .vmem, ⟨9, _⟩ => ⟨S1x8x19, .f32⟩
  | _, _ => ⟨S8x19x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_cst_2 : Ref sig .tc := ⟨.hbm, 11, rfl⟩
abbrev main_v4 : Ref sig .tc := ⟨.hbm, 12, rfl⟩
abbrev main_v5 : Ref sig .tc := ⟨.hbm, 13, rfl⟩
abbrev main_cst_3 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_4 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_5 : Ref sig .tc := ⟨.hbm, 22, rfl⟩
abbrev main_v12 : Ref sig .tc := ⟨.hbm, 23, rfl⟩
abbrev main_v13 : Ref sig .tc := ⟨.hbm, 24, rfl⟩
abbrev main_cst_6 : Ref sig .tc := ⟨.hbm, 25, rfl⟩
abbrev main_v14 : Ref sig .tc := ⟨.hbm, 26, rfl⟩
abbrev main_cst_7 : Ref sig .tc := ⟨.hbm, 27, rfl⟩
abbrev main_v15 : Ref sig .tc := ⟨.hbm, 28, rfl⟩
abbrev main_v16 : Ref sig .tc := ⟨.hbm, 29, rfl⟩
abbrev main_cst_8 : Ref sig .tc := ⟨.hbm, 30, rfl⟩
abbrev main_v17 : Ref sig .tc := ⟨.hbm, 31, rfl⟩
abbrev main_cst_9 : Ref sig .tc := ⟨.hbm, 32, rfl⟩
abbrev main_v18 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x19x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x64x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x19 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x19 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x19 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S8x19x64x512_S8x19x64x512_0_0_0_0 : ∀ a, (![0, 0, 0, 0] : Fin 4 → Nat) a + S8x19x64x512.size a ≤ S8x19x64x512.size a
  h_S8x19x64x512 : 0 < S8x19x64x512.numel
  reduces_S8x19x64x512_S8x64x512 : S8x19x64x512.Reduces [1] S8x64x512
  shapeCasts_S8x64x512_S8x1x64x512 : S8x64x512.ShapeCasts S8x1x64x512
  broadcasts_S8x1x64x512_S8x19x64x512 : S8x1x64x512.Broadcasts S8x19x64x512
  inb_S8x64x512_S8x64x512_0_0_0 : ∀ a, (![0, 0, 0] : Fin 3 → Nat) a + S8x64x512.size a ≤ S8x64x512.size a
  h_S8x64x512 : 0 < S8x64x512.numel
  iota_S8x19x64x512_d1_w32 : S8x19x64x512.Iotas .tc 32 [1]
  natLt_1_32 : 1 < 32
  reduces_S8x19x64x512_S8x19 : S8x19x64x512.Reduces [2, 3] S8x19
  shapeCasts_S8x19_S1x8x19 : S8x19.ShapeCasts S1x8x19
  inb_S1x8x19_S1x8x19_0_0_0 : ∀ a, (![0, 0, 0] : Fin 3 → Nat) a + S1x8x19.size a ≤ S1x8x19.size a
  h_S1x8x19 : 0 < S1x8x19.numel
  reducesTo_S8x8x19_S8x19_d0 : S8x8x19.ReducesTo [0] S8x19
  h_S_ : 0 < S_.numel
  bcast_S_S8x19 : S_.BroadcastsInDim S8x19 (![] : Fin 0 → Fin S8x19.rank)
  reducesTo_S8x19_S19_d0 : S8x19.ReducesTo [0] S19
  bcast_S_S19 : S_.BroadcastsInDim S19 (![] : Fin 0 → Fin S19.rank)
  reducesTo_S19_S_d0 : S19.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x19x64x512.size a ≤ S8x19x512x512.size a
  hwx0_0 : ∀ i : grid0.Coords, EltTy.bits .f32 = 32 ∨ (Rect.block (s := S8x19x512x512) S8x19x64x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x64x512.size a ≤ S8x512x512.size a
  hwx0_1 : ∀ i : grid0.Coords, EltTy.bits .i32 = 32 ∨ (Rect.block (s := S8x512x512) S8x64x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x19.size a ≤ S8x8x19.size a
  hwx0_2 : ∀ i : grid0.Coords, EltTy.bits .f32 = 32 ∨ (Rect.block (s := S8x8x19) S1x8x19.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x19.size a ≤ S8x8x19.size a
  hwx0_3 : ∀ i : grid0.Coords, EltTy.bits .f32 = 32 ∨ (Rect.block (s := S8x8x19) S1x8x19.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x19.size a ≤ S8x8x19.size a
  hwx0_4 : ∀ i : grid0.Coords, EltTy.bits .f32 = 32 ∨ (Rect.block (s := S8x8x19) S1x8x19.size (cc0_transform_4 i) (hinb0_4 i)).WholeWords (EltTy.packing .f32)

variable [Facts₀]

abbrev win0_0 : Pipeline.Window sig grid0 :=
  Pipeline.Window.ofSpec (Memref.whole main_arg0) S8x19x64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x64x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x8x19.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x8x19.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S1x8x19.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x19x512x512 : Shape := ⟨4, ![8, 19, 512, 512]⟩
abbrev S8x512x512 : Shape := ⟨3, ![8, 512, 512]⟩
abbrev S_ : Shape := ⟨0, ![]⟩
abbrev S8x1x512x512 : Shape := ⟨4, ![8, 1, 512, 512]⟩
abbrev S19 : Shape := ⟨1, ![19]⟩
abbrev S1x19x1x1 : Shape := ⟨4, ![1, 19, 1, 1]⟩
abbrev S8x19 : Shape := ⟨2, ![8, 19]⟩

abbrev nBuf : Space → Nat
  | .hbm => 53
  | .vmem => 0
  | .smem => 0
  | _ => 0

abbrev bufTy : (tb : Table) → Fin (tcTables nBuf tb) → BufTy
  | .hbm, ⟨0, _⟩ => ⟨S8x19x512x512, .f32⟩
  | .hbm, ⟨1, _⟩ => ⟨S8x512x512, .i32⟩
  | .hbm, ⟨2, _⟩ => ⟨S_, .f32⟩
  | .hbm, ⟨3, _⟩ => ⟨S8x512x512, .f32⟩
  | .hbm, ⟨4, _⟩ => ⟨S_, .f32⟩
  | .hbm, ⟨5, _⟩ => ⟨S8x512x512, .f32⟩
  | .hbm, ⟨6, _⟩ => ⟨S8x512x512, .f32⟩
  | .hbm, ⟨7, _⟩ => ⟨S8x1x512x512, .f32⟩
  | .hbm, ⟨8, _⟩ => ⟨S8x19x512x512, .f32⟩
  | .hbm, ⟨9, _⟩ => ⟨S8x19x512x512, .f32⟩
  | .hbm, ⟨10, _⟩ => ⟨S8x19x512x512, .f32⟩
  | .hbm, ⟨11, _⟩ => ⟨S_, .f32⟩
  | .hbm, ⟨12, _⟩ => ⟨S8x512x512, .f32⟩
  | .hbm, ⟨13, _⟩ => ⟨S8x1x512x512, .f32⟩
  | .hbm, ⟨14, _⟩ => ⟨S8x19x512x512, .f32⟩
  | .hbm, ⟨15, _⟩ => ⟨S8x19x512x512, .f32⟩
  | .hbm, ⟨16, _⟩ => ⟨S8x1x512x512, .i32⟩
  | .hbm, ⟨17, _⟩ => ⟨S19, .i32⟩
  | .hbm, ⟨18, _⟩ => ⟨S1x19x1x1, .i32⟩
  | .hbm, ⟨19, _⟩ => ⟨S8x19x512x512, .i32⟩
  | .hbm, ⟨20, _⟩ => ⟨S8x19x512x512, .i32⟩
  | .hbm, ⟨21, _⟩ => ⟨S8x19x512x512, .i1⟩
  | .hbm, ⟨22, _⟩ => ⟨S8x19x512x512, .f32⟩
  | .hbm, ⟨23, _⟩ => ⟨S8x19x512x512, .f32⟩
  | .hbm, ⟨24, _⟩ => ⟨S_, .f32⟩
  | .hbm, ⟨25, _⟩ => ⟨S8x19, .f32⟩
  | .hbm, ⟨26, _⟩ => ⟨S_, .f32⟩
  | .hbm, ⟨27, _⟩ => ⟨S8x19, .f32⟩
  | .hbm, ⟨28, _⟩ => ⟨S_, .f32⟩
  | .hbm, ⟨29, _⟩ => ⟨S8x19, .f32⟩
  | .hbm, ⟨30, _⟩ => ⟨S_, .f32⟩
  | .hbm, ⟨31, _⟩ => ⟨S8x19, .f32⟩
  | .hbm, ⟨32, _⟩ => ⟨S8x19, .f32⟩
  | .hbm, ⟨33, _⟩ => ⟨S_, .f32⟩
  | .hbm, ⟨34, _⟩ => ⟨S8x19, .f32⟩
  | .hbm, ⟨35, _⟩ => ⟨S8x19, .f32⟩
  | .hbm, ⟨36, _⟩ => ⟨S8x19, .f32⟩
  | .hbm, ⟨37, _⟩ => ⟨S_, .f32⟩
  | .hbm, ⟨38, _⟩ => ⟨S8x19, .f32⟩
  | .hbm, ⟨39, _⟩ => ⟨S8x19, .f32⟩
  | .hbm, ⟨40, _⟩ => ⟨S8x19, .f32⟩
  | .hbm, ⟨41, _⟩ => ⟨S_, .f32⟩
  | .hbm, ⟨42, _⟩ => ⟨S8x19, .f32⟩
  | .hbm, ⟨43, _⟩ => ⟨S8x19, .f32⟩
  | .hbm, ⟨44, _⟩ => ⟨S_, .f32⟩
  | .hbm, ⟨45, _⟩ => ⟨S19, .f32⟩
  | .hbm, ⟨46, _⟩ => ⟨S_, .f32⟩
  | .hbm, ⟨47, _⟩ => ⟨S19, .f32⟩
  | .hbm, ⟨48, _⟩ => ⟨S19, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | _, _ => ⟨S8x19x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_cst_5 : Ref sig .tc := ⟨.hbm, 30, rfl⟩
abbrev main_v22 : Ref sig .tc := ⟨.hbm, 31, rfl⟩
abbrev main_v23 : Ref sig .tc := ⟨.hbm, 32, rfl⟩
abbrev main_cst_6 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_7 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_8 : Ref sig .tc := ⟨.hbm, 41, rfl⟩
abbrev main_v30 : Ref sig .tc := ⟨.hbm, 42, rfl⟩
abbrev main_v31 : Ref sig .tc := ⟨.hbm, 43, rfl⟩
abbrev main_cst_9 : Ref sig .tc := ⟨.hbm, 44, rfl⟩
abbrev main_v32 : Ref sig .tc := ⟨.hbm, 45, rfl⟩
abbrev main_cst_10 : Ref sig .tc := ⟨.hbm, 46, rfl⟩
abbrev main_v33 : Ref sig .tc := ⟨.hbm, 47, rfl⟩
abbrev main_v34 : Ref sig .tc := ⟨.hbm, 48, rfl⟩
abbrev main_cst_11 : Ref sig .tc := ⟨.hbm, 49, rfl⟩
abbrev main_v35 : Ref sig .tc := ⟨.hbm, 50, rfl⟩
abbrev main_cst_12 : Ref sig .tc := ⟨.hbm, 51, rfl⟩
abbrev main_v36 : Ref sig .tc := ⟨.hbm, 52, rfl⟩

abbrev nD : Nat := 1
abbrev τ : Topo := Topo.v7x

variable {F : FTy → Type} [FloatOps F]

class Facts₀ : Prop where
  reducesTo_S8x19x512x512_S8x512x512_d1 : S8x19x512x512.ReducesTo [1] S8x512x512
  h_S_ : 0 < S_.numel
  bcast_S_S8x512x512 : S_.BroadcastsInDim S8x512x512 (![] : Fin 0 → Fin S8x512x512.rank)
  bcast_S8x512x512_S8x1x512x512_0_2_3 : S8x512x512.BroadcastsInDim S8x1x512x512 (![0, 2, 3] : Fin 3 → Fin S8x1x512x512.rank)
  bcast_S8x1x512x512_S8x19x512x512_0_1_2_3 : S8x1x512x512.BroadcastsInDim S8x19x512x512 (![0, 1, 2, 3] : Fin 4 → Fin S8x19x512x512.rank)
  bcast_S19_S1x19x1x1_1 : S19.BroadcastsInDim S1x19x1x1 (![1] : Fin 1 → Fin S1x19x1x1.rank)
  bcast_S1x19x1x1_S8x19x512x512_0_1_2_3 : S1x19x1x1.BroadcastsInDim S8x19x512x512 (![0, 1, 2, 3] : Fin 4 → Fin S8x19x512x512.rank)
  reducesTo_S8x19x512x512_S8x19_d2_3 : S8x19x512x512.ReducesTo [2, 3] S8x19
  bcast_S_S8x19 : S_.BroadcastsInDim S8x19 (![] : Fin 0 → Fin S8x19.rank)
  reducesTo_S8x19_S19_d0 : S8x19.ReducesTo [0] S19
  bcast_S_S19 : S_.BroadcastsInDim S19 (![] : Fin 0 → Fin S19.rank)
  reducesTo_S19_S_d0 : S19.ReducesTo [0] S_

variable [Facts₀]

class Facts : Prop extends Facts₀ where

variable [Facts]
-- ==== Proof.Spec.lean ====
/-
  The Dice loss's per-pixel and per-class quantities on the extended reals.

  A pixel `(n, h, w)` of the prediction array has 19 class scores `v`. Its softmax at class `c` is
  `exp (v c - M) / ∑ k, exp (v k - M)` with `M` the largest score (folded from -∞). Its one-hot value at class `c` is
  `1` when the target word at the pixel is `c` and `0` otherwise. For a sample `n` and a class `c` the loss uses three
  sums over the 512 × 512 pixels: of softmax · one-hot, of softmax, and of one-hot.
-/
import Idealize.ShloMosaic.PureOps.Ideal
import Idealize.ShloMosaic.Lib.ValueIdx

noncomputable section

open scoped BigOperators

namespace Cert.Dice

open Idealize.ShloMosaic Idealize.ShloMosaic.ValueIdx

/-- The prediction array's shape, the target array's, and the per-sample per-class shape. -/
abbrev SP : Shape := ⟨4, ![8, 19, 512, 512]⟩
abbrev ST : Shape := ⟨3, ![8, 512, 512]⟩
abbrev SC : Shape := ⟨2, ![8, 19]⟩

/-- The largest of a pixel's class scores, folded from -∞. -/
def colMax (v : Fin 19 → EReal) : EReal :=
  (Finset.univ : Finset (Fin 19)).fold max (Ideal.ofBits .f32 0xFF800000#32) v

/-- A pixel's softmax at class `c`. -/
def softmaxAt (v : Fin 19 → EReal) (c : Fin 19) : EReal :=
  Ideal.div (Ideal.exp (v c - colMax v)) (∑ k : Fin 19, Ideal.exp (v k - colMax v))

/-- A pixel's one-hot value at class `c`: the bit "the target word is `c`" read as a number. -/
def hotAt (t : BitVec 32) (c : Fin 19) : EReal :=
  FloatOps.uitofp (F := Ideal) .f32 (IntOp.cmpi .eq t (BitVec.ofNat 32 c.val))

/-- The softmax of the prediction array at `(n, c, h, w)`: of the 19 scores of pixel `(n, h, w)`. -/
def prob (x : SP.Idx → EReal) (n : Fin 8) (c : Fin 19) (h w : Fin 512) : EReal :=
  softmaxAt (fun k => x (ix4 n k h w)) c

/-- The one-hot of the target array at `(n, c, h, w)`. -/
def hot (t : ST.Idx → BitVec 32) (n : Fin 8) (c : Fin 19) (h w : Fin 512) : EReal :=
  hotAt (t (ix3 n h w)) c

/-- The three per-sample per-class sums over all pixels. -/
def interSum (x : SP.Idx → EReal) (t : ST.Idx → BitVec 32) (n : Fin 8) (c : Fin 19) : EReal :=
  ∑ h : Fin 512, ∑ w : Fin 512, prob x n c h w * hot t n c h w
def probSum (x : SP.Idx → EReal) (n : Fin 8) (c : Fin 19) : EReal :=
  ∑ h : Fin 512, ∑ w : Fin 512, prob x n c h w
def hotSum (t : ST.Idx → BitVec 32) (n : Fin 8) (c : Fin 19) : EReal :=
  ∑ h : Fin 512, ∑ w : Fin 512, hot t n c h w

/-- Row `r` of the 64-row tile `t`. -/
abbrev rowOf (t : Fin 8) (r : Fin 64) : Fin 512 := ⟨64 * t.val + r.val, by omega⟩

/-- The same sums restricted to the 64 rows of tile `t`. -/
def interTile (x : SP.Idx → EReal) (t : ST.Idx → BitVec 32) (tile : Fin 8) (n : Fin 8) (c : Fin 19) : EReal :=
  ∑ r : Fin 64, ∑ w : Fin 512, prob x n c (rowOf tile r) w * hot t n c (rowOf tile r) w
def probTile (x : SP.Idx → EReal) (tile : Fin 8) (n : Fin 8) (c : Fin 19) : EReal :=
  ∑ r : Fin 64, ∑ w : Fin 512, prob x n c (rowOf tile r) w
def hotTile (t : ST.Idx → BitVec 32) (tile : Fin 8) (n : Fin 8) (c : Fin 19) : EReal :=
  ∑ r : Fin 64, ∑ w : Fin 512, hot t n c (rowOf tile r) w

end Cert.Dice

end
-- ==== Proof.LibSums.lean ====
/-
  Two re-indexings of finite sums, over any commutative monoid.

  * A sum over the indices of a rank-4 shape whose first two coordinates are fixed (the indices a reduction over
    the two trailing axes sends to one result index) is the double sum over the two trailing coordinates.
  * A sum over `Fin N` with `N = T * R` is the sum over `T` tiles of the sum over the `R` positions inside a tile,
    position `r` of tile `t` being `R * t + r`.
-/
import Idealize.ShloMosaic.Lib.ValueIdx
import Idealize.ShloMosaic.PureOps.Reduce

noncomputable section

open scoped BigOperators

namespace Cert.LibSums

open Idealize.ShloMosaic Idealize.ShloMosaic.ValueIdx

/-- Position `r` of tile `t` lies below `T * R`. -/
theorem tile_lt {T R N : Nat} (hN : T * R = N) (t : Fin T) (r : Fin R) : R * t.val + r.val < N := by
  have h1 : R * t.val + r.val < R * (t.val + 1) := by rw [Nat.mul_succ]; exact Nat.add_lt_add_left r.isLt _
  have h2 : R * (t.val + 1) ≤ R * T := Nat.mul_le_mul_left R (Nat.succ_le_of_lt t.isLt)
  rw [← hN, Nat.mul_comm T R]; exact Nat.lt_of_lt_of_le h1 h2

/-- A sum over `N = T * R` positions, tile by tile. -/
theorem sum_by_tiles {M : Type*} [AddCommMonoid M] {T R N : Nat} (hN : T * R = N) (f : Fin N → M) :
    ∑ h : Fin N, f h = ∑ t : Fin T, ∑ r : Fin R, f ⟨R * t.val + r.val, tile_lt hN t r⟩ := by
  subst hN
  rw [← Equiv.sum_comp (finProdFinEquiv (m := T) (n := R)) f, Fintype.sum_prod_type]
  refine Finset.sum_congr rfl fun t _ => Finset.sum_congr rfl fun r _ => congrArg f (Fin.ext ?_)
  show r.val + R * t.val = R * t.val + r.val
  omega

/-- The indices of a rank-4 shape that a reduction over axes 2 and 3 sends to `(p, q)`, summed, are the two
    trailing coordinates, summed. -/
theorem sum_filter_drop_last2 {M : Type*} [AddCommMonoid M] {n0 n1 A B : Nat}
    (h : (⟨4, ![n0, n1, A, B]⟩ : Shape).Reduces [2, 3] ⟨2, ![n0, n1]⟩)
    (x : (⟨4, ![n0, n1, A, B]⟩ : Shape).Idx → M) (p : Fin n0) (q : Fin n1) :
    ∑ i ∈ Finset.univ.filter (fun i => h.drop i = ix2 p q), x i = ∑ a : Fin A, ∑ b : Fin B, x (ix4 p q a b) := by
  have hd0 : ∀ i, ((h.drop i 0 : Fin n0) : Nat) = ((i 0 : Fin n0) : Nat) := fun i => rfl
  have hd1 : ∀ i, ((h.drop i 1 : Fin n1) : Nat) = ((i 1 : Fin n1) : Nat) := fun i => rfl
  rw [← Finset.sum_product']
  refine Finset.sum_nbij' (fun i => ((i 2 : Fin A), (i 3 : Fin B))) (fun ab => ix4 p q ab.1 ab.2) ?_ ?_ ?_ ?_ ?_
  · intro i _; exact Finset.mem_product.2 ⟨Finset.mem_univ _, Finset.mem_univ _⟩
  · intro ab _
    refine Finset.mem_filter.2 ⟨Finset.mem_univ _, funext fun b => Fin.ext ?_⟩
    match b with
    | ⟨0, _⟩ => exact hd0 _
    | ⟨1, _⟩ => exact hd1 _
  · intro i hi
    have hj := (Finset.mem_filter.1 hi).2
    have e0 : (i 0 : Fin n0) = p := Fin.ext ((hd0 i).symm.trans (congrArg (fun j : (⟨2, ![n0, n1]⟩ : Shape).Idx => ((j 0 : Fin n0) : Nat)) hj))
    have e1 : (i 1 : Fin n1) = q := Fin.ext ((hd1 i).symm.trans (congrArg (fun j : (⟨2, ![n0, n1]⟩ : Shape).Idx => ((j 1 : Fin n1) : Nat)) hj))
    show ix4 p q (i 2) (i 3) = i
    rw [← e0, ← e1]; exact (eq_ix4 i).symm
  · intro ab _; rfl
  · intro i hi
    have hj := (Finset.mem_filter.1 hi).2
    have e0 : (i 0 : Fin n0) = p := Fin.ext ((hd0 i).symm.trans (congrArg (fun j : (⟨2, ![n0, n1]⟩ : Shape).Idx => ((j 0 : Fin n0) : Nat)) hj))
    have e1 : (i 1 : Fin n1) = q := Fin.ext ((hd1 i).symm.trans (congrArg (fun j : (⟨2, ![n0, n1]⟩ : Shape).Idx => ((j 1 : Fin n1) : Nat)) hj))
    show x i = x (ix4 p q (i 2) (i 3))
    rw [← e0, ← e1]; exact congrArg x (eq_ix4 i)

end Cert.LibSums

end
-- ==== Proof.KernelPoint.lean ====
/-
  The kernel body's values at one index, on the extended reals.

  A tile is a block of 64 rows: the prediction block `x0` has shape [8, 19, 64, 512] and the target block `x1` shape
  [8, 64, 512]. At `(n, c, r, w)` the body's quotient is the softmax of the 19 scores `x0 (n, ·, r, w)` at class `c`
  (the largest score and the sum of exponentials are both taken along the class axis, kept as a unit axis and
  broadcast back), and its converted comparison is the one-hot of the word `x1 (n, r, w)` at `c`. Each stored block,
  at `(0, n, c)`, is the double sum over the tile's rows and columns of the corresponding product or factor.
-/
import proofs.«167427_j54425825575360_1_alg».proof.Proof.Gen.KernelIdeal.Skeleton
import proofs.«167427_j54425825575360_1_alg».proof.Proof.Spec
import proofs.«167427_j54425825575360_1_alg».proof.Proof.LibSums
import Idealize.ShloMosaic.Lib.Pipeline.Value
import Idealize.ShloMosaic.Lib.ValueIdx
import Idealize.ShloMosaic.PureOps.Ideal.Laws

noncomputable section

open scoped BigOperators

namespace Cert.KernelIdeal.Pay

open Idealize.ShloMosaic Idealize.ShloMosaic.ValueIdx Cert.KernelIdeal Cert.KernelIdeal.Gen

/-- A value kept along the class axis as a unit axis and broadcast back over the 19 classes reads, at
    `(n, c, r, w)`, the value at `(n, r, w)`. -/
theorem keep_class {α : Type} (v : S8x64x512.Idx → α) (n : Fin 8) (c : Fin 19) (r : Fin 64) (w : Fin 512) :
    broadcastTo S8x19x64x512 (shapeCast S8x1x64x512 v shapeCasts_S8x64x512_S8x1x64x512)
      broadcasts_S8x1x64x512_S8x19x64x512 (ix4 n c r w) = v (ix3 n r w) := by
  refine (broadcastTo_apply _ broadcasts_S8x1x64x512_S8x19x64x512 (ix4 n c r w) (ix4 n (0 : Fin 1) r w) (fun a => ?_)).trans
    (shapeCast_apply v shapeCasts_S8x64x512_S8x1x64x512 (ix4 n (0 : Fin 1) r w) (ix3 n r w) ?_)
  · match a with
    | ⟨0, _⟩ => show n.val = if (8 : Nat) = 1 then 0 else n.val; rw [if_neg (by decide)]
    | ⟨1, _⟩ => show 0 = if (1 : Nat) = 1 then 0 else c.val; rw [if_pos rfl]
    | ⟨2, _⟩ => show r.val = if (64 : Nat) = 1 then 0 else r.val; rw [if_neg (by decide)]
    | ⟨3, _⟩ => show w.val = if (512 : Nat) = 1 then 0 else w.val; rw [if_neg (by decide)]
  · rw [Shape.rowMajor_val_three, Shape.rowMajor_val_four]
    show (n.val * 64 + r.val) * 512 + w.val = ((n.val * 1 + 0) * 64 + r.val) * 512 + w.val
    omega

/-- The maximum along the class axis, at pixel `(n, r, w)`: the fold of `max` from -∞ over the pixel's 19 scores. -/
theorem max_at (x0 : FVec Ideal S8x19x64x512 .f32) (n : Fin 8) (r : Fin 64) (w : Fin 512) :
    multiReduction .maximumf [1] S8x64x512 x0 0xFF800000#32 reduces_S8x19x64x512_S8x64x512 (.inl rfl) rfl (ix3 n r w)
      = Dice.colMax (fun k => x0 (ix4 n k r w)) := by
  refine (Ideal.multiReduction_maximumf_single x0 0xFF800000#32 reduces_S8x19x64x512_S8x64x512 (.inl rfl) rfl (ix3 n r w)).trans ?_
  unfold Dice.colMax
  show (Finset.univ : Finset (Fin 19)).fold max (Ideal.ofBits .f32 0xFF800000#32)
      (fun k => x0 (reduces_S8x19x64x512_S8x64x512.lift (ix3 n r w) k)) = _
  refine congrArg (fun f : Fin 19 → EReal => (Finset.univ : Finset (Fin 19)).fold max (Ideal.ofBits .f32 0xFF800000#32) f)
    (funext fun k => congrArg x0 (funext fun a => Fin.ext ?_))
  match a with | ⟨0, _⟩ => rfl | ⟨1, _⟩ => rfl | ⟨2, _⟩ => rfl | ⟨3, _⟩ => rfl

/-- The sum along the class axis, at pixel `(n, r, w)`: the sum over the 19 classes. -/
theorem sum_at (v : FVec Ideal S8x19x64x512 .f32) (n : Fin 8) (r : Fin 64) (w : Fin 512) :
    multiReduction .add [1] S8x64x512 v 0x00000000#32 reduces_S8x19x64x512_S8x64x512 (.inl rfl) rfl (ix3 n r w)
      = ∑ k : Fin 19, v (ix4 n k r w) := by
  refine (Ideal.multiReduction_add_single v 0x00000000#32 reduces_S8x19x64x512_S8x64x512 (.inl rfl) rfl (ix3 n r w)).trans ?_
  show ∑ k : Fin 19, v (reduces_S8x19x64x512_S8x64x512.lift (ix3 n r w) k) = _
  refine Finset.sum_congr rfl fun k _ => congrArg v (funext fun a => Fin.ext ?_)
  match a with | ⟨0, _⟩ => rfl | ⟨1, _⟩ => rfl | ⟨2, _⟩ => rfl | ⟨3, _⟩ => rfl

/-- The exponentials the body takes: of each score minus its pixel's largest. -/
def expOf (x0 : FVec Ideal S8x19x64x512 .f32) : FVec Ideal S8x19x64x512 .f32 :=
  exp (subf x0 (broadcastTo S8x19x64x512 (shapeCast S8x1x64x512
    (multiReduction .maximumf [1] S8x64x512 x0 0xFF800000#32 reduces_S8x19x64x512_S8x64x512 (.inl rfl) rfl)
    shapeCasts_S8x64x512_S8x1x64x512) broadcasts_S8x1x64x512_S8x19x64x512))

theorem expOf_at (x0 : FVec Ideal S8x19x64x512 .f32) (n : Fin 8) (k : Fin 19) (r : Fin 64) (w : Fin 512) :
    expOf x0 (ix4 n k r w) = Ideal.exp (x0 (ix4 n k r w) - Dice.colMax (fun k' => x0 (ix4 n k' r w))) := by
  show Ideal.exp (x0 (ix4 n k r w) - broadcastTo S8x19x64x512 (shapeCast S8x1x64x512
    (multiReduction .maximumf [1] S8x64x512 x0 0xFF800000#32 reduces_S8x19x64x512_S8x64x512 (.inl rfl) rfl)
    shapeCasts_S8x64x512_S8x1x64x512) broadcasts_S8x1x64x512_S8x19x64x512 (ix4 n k r w)) = _
  rw [keep_class, max_at]

/-- THE QUOTIENT the body takes is the softmax of the pixel's scores. -/
theorem pay1_at (x0 : FVec Ideal S8x19x64x512 .f32) (n : Fin 8) (c : Fin 19) (r : Fin 64) (w : Fin 512) :
    k0_pay1 (F := Ideal) x0 (ix4 n c r w) = Dice.softmaxAt (fun k => x0 (ix4 n k r w)) c := by
  show Ideal.div (expOf x0 (ix4 n c r w)) (broadcastTo S8x19x64x512 (shapeCast S8x1x64x512
    (multiReduction .add [1] S8x64x512 (expOf x0) 0x00000000#32 reduces_S8x19x64x512_S8x64x512 (.inl rfl) rfl)
    shapeCasts_S8x64x512_S8x1x64x512) broadcasts_S8x1x64x512_S8x19x64x512 (ix4 n c r w)) = _
  rw [keep_class, sum_at]
  unfold Dice.softmaxAt
  simp only [expOf_at]

/-- A bit widened to a word and read as a signed number is the bit read as an unsigned number. -/
theorem signed_of_widened_bit (b : BitVec 1) :
    FloatOps.sitofp (F := Ideal) .f32 (b.setWidth 32) = FloatOps.uitofp (F := Ideal) .f32 b := by
  show (((b.setWidth 32).toInt : ℝ) : EReal) = ((b.toNat : ℝ) : EReal)
  have h : (b.setWidth 32).toInt = (b.toNat : Int) := by
    rcases BitVec.eq_zero_or_eq_one b with h | h <;> subst h <;> decide
  rw [h]; norm_cast

/-- THE CONVERTED COMPARISON the body takes is the one-hot of the pixel's target word. -/
theorem pay2_at (x1 : IVec S8x64x512 32) (n : Fin 8) (c : Fin 19) (r : Fin 64) (w : Fin 512) :
    k0_pay2 (F := Ideal) x1 (ix4 n c r w) = Dice.hotAt (x1 (ix3 n r w)) c := by
  show FloatOps.sitofp (F := Ideal) .f32 ((IntOp.cmpi .eq
      (broadcastTo S8x19x64x512 (shapeCast S8x1x64x512 x1 shapeCasts_S8x64x512_S8x1x64x512)
        broadcasts_S8x1x64x512_S8x19x64x512 (ix4 n c r w))
      (iota .tc S8x19x64x512 32 [1] iota_S8x19x64x512_d1_w32 (ix4 n c r w))).setWidth 32) = _
  rw [keep_class, iota_single_apply, signed_of_widened_bit]
  rfl

/-- A [8, 19] value stored as a [1, 8, 19] block reads `(n, c)` at `(0, n, c)`. -/
theorem as_block {α : Type} (v : S8x19.Idx → α) (a : Fin 1) (n : Fin 8) (c : Fin 19) :
    shapeCast S1x8x19 v shapeCasts_S8x19_S1x8x19 (ix3 a n c) = v (ix2 n c) := by
  refine shapeCast_apply v shapeCasts_S8x19_S1x8x19 (ix3 a n c) (ix2 n c) ?_
  rw [Shape.rowMajor_val_two, Shape.rowMajor_val_three]
  show n.val * 19 + c.val = (a.val * 8 + n.val) * 19 + c.val
  have : a.val = 0 := by omega
  omega

/-- The sum over a tile's rows and columns, at `(n, c)`. -/
theorem tile_sum_at (v : FVec Ideal S8x19x64x512 .f32) (n : Fin 8) (c : Fin 19) :
    multiReduction .add [2, 3] S8x19 v 0x00000000#32 reduces_S8x19x64x512_S8x19 (.inl rfl) rfl (ix2 n c)
      = ∑ r : Fin 64, ∑ w : Fin 512, v (ix4 n c r w) :=
  Cert.LibSums.sum_filter_drop_last2 reduces_S8x19x64x512_S8x19 v n c

/-- THE THREE STORED BLOCKS at `(0, n, c)`. -/
theorem pay3_at (x0 : FVec Ideal S8x19x64x512 .f32) (x1 : IVec S8x64x512 32) (a : Fin 1) (n : Fin 8) (c : Fin 19) :
    k0_pay3 (F := Ideal) x0 x1 (ix3 a n c)
      = ∑ r : Fin 64, ∑ w : Fin 512, k0_pay1 (F := Ideal) x0 (ix4 n c r w) * k0_pay2 (F := Ideal) x1 (ix4 n c r w) := by
  show shapeCast S1x8x19 (multiReduction .add [2, 3] S8x19 (mulf (k0_pay1 (F := Ideal) x0) (k0_pay2 (F := Ideal) x1))
    0x00000000#32 reduces_S8x19x64x512_S8x19 (.inl rfl) rfl) shapeCasts_S8x19_S1x8x19 (ix3 a n c) = _
  rw [as_block, tile_sum_at]
  rfl

theorem pay4_at (x0 : FVec Ideal S8x19x64x512 .f32) (a : Fin 1) (n : Fin 8) (c : Fin 19) :
    k0_pay4 (F := Ideal) x0 (ix3 a n c) = ∑ r : Fin 64, ∑ w : Fin 512, k0_pay1 (F := Ideal) x0 (ix4 n c r w) := by
  show shapeCast S1x8x19 (multiReduction .add [2, 3] S8x19 (k0_pay1 (F := Ideal) x0)
    0x00000000#32 reduces_S8x19x64x512_S8x19 (.inl rfl) rfl) shapeCasts_S8x19_S1x8x19 (ix3 a n c) = _
  rw [as_block, tile_sum_at]

theorem pay5_at (x1 : IVec S8x64x512 32) (a : Fin 1) (n : Fin 8) (c : Fin 19) :
    k0_pay5 (F := Ideal) x1 (ix3 a n c) = ∑ r : Fin 64, ∑ w : Fin 512, k0_pay2 (F := Ideal) x1 (ix4 n c r w) := by
  show shapeCast S1x8x19 (multiReduction .add [2, 3] S8x19 (k0_pay2 (F := Ideal) x1)
    0x00000000#32 reduces_S8x19x64x512_S8x19 (.inl rfl) rfl) shapeCasts_S8x19_S1x8x19 (ix3 a n c) = _
  rw [as_block, tile_sum_at]

end Cert.KernelIdeal.Pay

end
-- ==== Proof.KernelArrays.lean ====
/-
  The kernel's three output arrays after the run, each as one function of the argument arrays.

  The grid has 8 points; point `t` reads rows `64 t … 64 t + 63` of every sample and class of the prediction array
  and of the target array, and writes block `t` (of shape [1, 8, 19]) of each output array. So entry `(t, n, c)` of an
  output array is the sum over the 64 rows of tile `t` and the 512 columns of the per-pixel quantity at sample `n`,
  class `c`; the 8 blocks tile the [8, 8, 19] array, so the whole array is that function.
-/
import proofs.«167427_j54425825575360_1_alg».proof.Proof.Gen.KernelIdeal.Frame
import proofs.«167427_j54425825575360_1_alg».proof.Proof.KernelPoint
import Idealize.ShloMosaic.Lib.Pipeline.Value

set_option maxRecDepth 16384

noncomputable section

open scoped BigOperators

namespace Cert.KernelIdeal.Arrays

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (m : (ℓ : Loc nD τ sig) → Buf (Elt Ideal) ℓ)

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- A grid point as a tile number, and a tile coordinate as a grid point. -/
def tileOf (t : Fin cfg0.N) : Fin 8 := ⟨t.val, Nat.lt_of_lt_of_eq t.isLt N_0⟩
def pointOf (q : Fin 8) : Fin cfg0.N := ⟨q.val, Nat.lt_of_lt_of_eq q.isLt N_0.symm⟩

/-- The output arrays as functions of the argument arrays: entry `(t, n, c)` is the tile's sum. -/
def GI (x : Dice.SP.Idx → EReal) (tg : Dice.ST.Idx → BitVec 32) : S8x8x19.Idx → EReal :=
  fun i => Dice.interTile x tg (i 0) (i 1) (i 2)
def GP (x : Dice.SP.Idx → EReal) : S8x8x19.Idx → EReal := fun i => Dice.probTile x (i 0) (i 1) (i 2)
def GH (tg : Dice.ST.Idx → BitVec 32) : S8x8x19.Idx → EReal := fun i => Dice.hotTile tg (i 0) (i 1) (i 2)

/-- The printed index maps, decided over the grid: the two inputs' blocks move along the row axis with the point, and
    each output's block index is the point itself. -/
theorem idx_facts : ∀ t : Fin cfg0.N,
    win0_0.index t (0 : Fin 4) = 0 ∧ win0_0.index t (1 : Fin 4) = 0 ∧ win0_0.index t (2 : Fin 4) = t.val ∧ win0_0.index t (3 : Fin 4) = 0
    ∧ win0_1.index t (0 : Fin 3) = 0 ∧ win0_1.index t (1 : Fin 3) = t.val ∧ win0_1.index t (2 : Fin 3) = 0
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0) :=
  (by decide +kernel : ∀ t : Fin grid0.N, _)

/-- The prediction block at point `t` reads the prediction array at the tile's rows. -/
theorem blk0_read (c : Dev nD) (t : Fin cfg0.N) (n : Fin 8) (k : Fin 19) (r : Fin 64) (w : Fin 512) :
    iblk m c 0 t (ix4 n k r w) = V m c main_arg0 (ix4 n k (Dice.rowOf (tileOf t) r) w) := by
  show V m c main_arg0 (((cfg0.win 0).blk t).view.emb (ix4 n k r w)) = V m c main_arg0 (ix4 n k (Dice.rowOf (tileOf t) r) w)
  have h0 : ((cfg0.win 0).blk t).view.emb (ix4 n k r w) = ix4 n k (Dice.rowOf (tileOf t) r) w := by
    obtain ⟨e0, e1, e2, e3, -⟩ := idx_facts t
    funext a; apply Fin.ext
    match a with
    | ⟨0, _⟩ => show win0_0.index t (0 : Fin 4) * 8 + 1 * n.val = n.val; omega
    | ⟨1, _⟩ => show win0_0.index t (1 : Fin 4) * 19 + 1 * k.val = k.val; omega
    | ⟨2, _⟩ => show win0_0.index t (2 : Fin 4) * 64 + 1 * r.val = 64 * t.val + r.val; omega
    | ⟨3, _⟩ => show win0_0.index t (3 : Fin 4) * 512 + 1 * w.val = w.val; omega
  rw [h0]

/-- The target block at point `t` reads the target array at the tile's rows. -/
theorem blk1_read (c : Dev nD) (t : Fin cfg0.N) (n : Fin 8) (r : Fin 64) (w : Fin 512) :
    iblk m c 1 t (ix3 n r w) = V m c main_arg1 (ix3 n (Dice.rowOf (tileOf t) r) w) := by
  show V m c main_arg1 (((cfg0.win 1).blk t).view.emb (ix3 n r w)) = V m c main_arg1 (ix3 n (Dice.rowOf (tileOf t) r) w)
  have h1 : ((cfg0.win 1).blk t).view.emb (ix3 n r w) = ix3 n (Dice.rowOf (tileOf t) r) w := by
    obtain ⟨-, -, -, -, e0, e1, e2, -⟩ := idx_facts t
    funext a; apply Fin.ext
    match a with
    | ⟨0, _⟩ => show win0_1.index t (0 : Fin 3) * 8 + 1 * n.val = n.val; omega
    | ⟨1, _⟩ => show win0_1.index t (1 : Fin 3) * 64 + 1 * r.val = 64 * t.val + r.val; omega
    | ⟨2, _⟩ => show win0_1.index t (2 : Fin 3) * 512 + 1 * w.val = w.val; omega
  rw [h1]

/-! ## Output window 2 -/

/-- What point `t` writes back to window 2 is block `t` of `GI` of the argument arrays as the region finds them. -/
theorem flushed2_eq (c : Dev nD) (t : Fin cfg0.N) :
    (dats m 0 c).flushed 2 t = ((cfg0.win 2).blk t).view.read (Elt Ideal) (GI (V m c main_arg0) (V m c main_arg1)) := by
  show (cfg0.win 2).cut (grid0.coords t) ((dats m 0 c).after 2 t) = _
  rw [after0_2]
  unfold out0_2
  rw [View.canon_unit_zero hz3]
  simp only [View.ld_unit_zero (S := S8x19x64x512) hz4, View.ld_unit_zero (S := S8x64x512) hz3]
  funext j
  obtain ⟨a, n, k, rfl⟩ : ∃ (a : Fin 1) (n : Fin 8) (k : Fin 19), j = ix3 a n k := ⟨j 0, j 1, j 2, eq_ix3 j⟩
  show k0_pay3 (F := Ideal) (iblk m c 0 t) (iblk m c 1 t) (ix3 a n k) = GI (V m c main_arg0) (V m c main_arg1) (((cfg0.win 2).blk t).view.emb (ix3 a n k))
  have hemb : ((cfg0.win 2).blk t).view.emb (ix3 a n k) = ix3 (tileOf t) n k := by
    obtain ⟨-, -, -, -, -, -, -, e2, e3, e4⟩ := idx_facts t
    have ha : a.val = 0 := by omega
    funext b; apply Fin.ext
    match b with
    | ⟨0, _⟩ => show win0_2.index t (0 : Fin 3) * 1 + 1 * a.val = t.val; omega
    | ⟨1, _⟩ => show win0_2.index t (1 : Fin 3) * 8 + 1 * n.val = n.val; omega
    | ⟨2, _⟩ => show win0_2.index t (2 : Fin 3) * 19 + 1 * k.val = k.val; omega
  rw [hemb]
  show _ = Dice.interTile (V m c main_arg0) (V m c main_arg1) (tileOf t) n k
  refine (Pay.pay3_at (iblk m c 0 t) (iblk m c 1 t) a n k).trans ?_
  unfold Dice.interTile
  refine Finset.sum_congr rfl fun r _ => Finset.sum_congr rfl fun w _ => ?_
  rw [Pay.pay1_at (iblk m c 0 t) n k r w, Pay.pay2_at (iblk m c 1 t) n k r w, blk1_read m c t n r w]
  unfold Dice.prob Dice.hot
  simp only [blk0_read m c t n _ r w]

/-- An index of window 2's array is in point `t`'s block iff each coordinate is in the block's range on its axis. -/
theorem mem_blk2 (t : Fin cfg0.N) (i : S8x8x19.Idx) :
    i ∈ ((cfg0.win 2).blk t).view.set ↔ ∀ a : Fin 3, win0_2.index t a * S1x8x19.size a ≤ (i a).val ∧ (i a).val < win0_2.index t a * S1x8x19.size a + S1x8x19.size a := by
  show i ∈ ((View.whole main_v0_0).slice (win0_2.rect t)).set ↔ _
  rw [View.set_slice_whole, Rect.mem_set_unit]
  exact Iff.rfl

/-- Every index of window 2's array is in the block of the point its tile coordinate names. -/
theorem cover2 (i : S8x8x19.Idx) : ∃ t : Fin cfg0.N, (cfg0.win 2).flush t = true ∧ i ∈ ((cfg0.win 2).blk t).view.set := by
  have hi0 : (i 0).val < 8 := (i 0).isLt
  have hi1 : (i 1).val < 8 := (i 1).isLt
  have hi2 : (i 2).val < 19 := (i 2).isLt
  refine ⟨pointOf (i 0), flush0_2 _, ?_⟩
  rw [mem_blk2]
  obtain ⟨-, -, -, -, -, -, -, e2, e3, e4⟩ := idx_facts (pointOf (i 0))
  have hp : (pointOf (i 0)).val = (i 0).val := rfl
  intro a
  match a with
  | ⟨0, _⟩ => show win0_2.index (pointOf (i 0)) (0 : Fin 3) * 1 ≤ (i 0).val ∧ (i 0).val < win0_2.index (pointOf (i 0)) (0 : Fin 3) * 1 + 1; omega
  | ⟨1, _⟩ => show win0_2.index (pointOf (i 0)) (1 : Fin 3) * 8 ≤ (i 1).val ∧ (i 1).val < win0_2.index (pointOf (i 0)) (1 : Fin 3) * 8 + 8; omega
  | ⟨2, _⟩ => show win0_2.index (pointOf (i 0)) (2 : Fin 3) * 19 ≤ (i 2).val ∧ (i 2).val < win0_2.index (pointOf (i 0)) (2 : Fin 3) * 19 + 19; omega

/-- THE ARRAY of window 2 after the run. -/
theorem final2 (c : Dev nD) : (dats m 0 c).arrAt 2 cfg0.N = GI (V m c main_arg0) (V m c main_arg1) :=
  (dats m 0 c).arrAt_eq_of_cover 2 (GI (V m c main_arg0) (V m c main_arg1)) (fun t _ => flushed2_eq m c t) cover2

/-! ## Output window 3 -/

/-- What point `t` writes back to window 3 is block `t` of `GP` of the argument arrays as the region finds them. -/
theorem flushed3_eq (c : Dev nD) (t : Fin cfg0.N) :
    (dats m 0 c).flushed 3 t = ((cfg0.win 3).blk t).view.read (Elt Ideal) (GP (V m c main_arg0)) := by
  show (cfg0.win 3).cut (grid0.coords t) ((dats m 0 c).after 3 t) = _
  rw [after0_3]
  unfold out0_3
  rw [View.canon_unit_zero hz3]
  simp only [View.ld_unit_zero (S := S8x19x64x512) hz4, View.ld_unit_zero (S := S8x64x512) hz3]
  funext j
  obtain ⟨a, n, k, rfl⟩ : ∃ (a : Fin 1) (n : Fin 8) (k : Fin 19), j = ix3 a n k := ⟨j 0, j 1, j 2, eq_ix3 j⟩
  show k0_pay4 (F := Ideal) (iblk m c 0 t) (ix3 a n k) = GP (V m c main_arg0) (((cfg0.win 3).blk t).view.emb (ix3 a n k))
  have hemb : ((cfg0.win 3).blk t).view.emb (ix3 a n k) = ix3 (tileOf t) n k := by
    obtain ⟨-, -, -, -, -, -, -, e2, e3, e4⟩ := idx_facts t
    have ha : a.val = 0 := by omega
    funext b; apply Fin.ext
    match b with
    | ⟨0, _⟩ => show win0_3.index t (0 : Fin 3) * 1 + 1 * a.val = t.val; omega
    | ⟨1, _⟩ => show win0_3.index t (1 : Fin 3) * 8 + 1 * n.val = n.val; omega
    | ⟨2, _⟩ => show win0_3.index t (2 : Fin 3) * 19 + 1 * k.val = k.val; omega
  rw [hemb]
  show _ = Dice.probTile (V m c main_arg0) (tileOf t) n k
  refine (Pay.pay4_at (iblk m c 0 t) a n k).trans ?_
  unfold Dice.probTile
  refine Finset.sum_congr rfl fun r _ => Finset.sum_congr rfl fun w _ => ?_
  rw [Pay.pay1_at (iblk m c 0 t) n k r w]
  unfold Dice.prob
  simp only [blk0_read m c t n _ r w]

/-- An index of window 3's array is in point `t`'s block iff each coordinate is in the block's range on its axis. -/
theorem mem_blk3 (t : Fin cfg0.N) (i : S8x8x19.Idx) :
    i ∈ ((cfg0.win 3).blk t).view.set ↔ ∀ a : Fin 3, win0_3.index t a * S1x8x19.size a ≤ (i a).val ∧ (i a).val < win0_3.index t a * S1x8x19.size a + S1x8x19.size a := by
  show i ∈ ((View.whole main_v0_1).slice (win0_3.rect t)).set ↔ _
  rw [View.set_slice_whole, Rect.mem_set_unit]
  exact Iff.rfl

/-- Every index of window 3's array is in the block of the point its tile coordinate names. -/
theorem cover3 (i : S8x8x19.Idx) : ∃ t : Fin cfg0.N, (cfg0.win 3).flush t = true ∧ i ∈ ((cfg0.win 3).blk t).view.set := by
  have hi0 : (i 0).val < 8 := (i 0).isLt
  have hi1 : (i 1).val < 8 := (i 1).isLt
  have hi2 : (i 2).val < 19 := (i 2).isLt
  refine ⟨pointOf (i 0), flush0_3 _, ?_⟩
  rw [mem_blk3]
  obtain ⟨-, -, -, -, -, -, -, e2, e3, e4⟩ := idx_facts (pointOf (i 0))
  have hp : (pointOf (i 0)).val = (i 0).val := rfl
  intro a
  match a with
  | ⟨0, _⟩ => show win0_3.index (pointOf (i 0)) (0 : Fin 3) * 1 ≤ (i 0).val ∧ (i 0).val < win0_3.index (pointOf (i 0)) (0 : Fin 3) * 1 + 1; omega
  | ⟨1, _⟩ => show win0_3.index (pointOf (i 0)) (1 : Fin 3) * 8 ≤ (i 1).val ∧ (i 1).val < win0_3.index (pointOf (i 0)) (1 : Fin 3) * 8 + 8; omega
  | ⟨2, _⟩ => show win0_3.index (pointOf (i 0)) (2 : Fin 3) * 19 ≤ (i 2).val ∧ (i 2).val < win0_3.index (pointOf (i 0)) (2 : Fin 3) * 19 + 19; omega

/-- THE ARRAY of window 3 after the run. -/
theorem final3 (c : Dev nD) : (dats m 0 c).arrAt 3 cfg0.N = GP (V m c main_arg0) :=
  (dats m 0 c).arrAt_eq_of_cover 3 (GP (V m c main_arg0)) (fun t _ => flushed3_eq m c t) cover3

/-! ## Output window 4 -/

/-- What point `t` writes back to window 4 is block `t` of `GH` of the argument arrays as the region finds them. -/
theorem flushed4_eq (c : Dev nD) (t : Fin cfg0.N) :
    (dats m 0 c).flushed 4 t = ((cfg0.win 4).blk t).view.read (Elt Ideal) (GH (V m c main_arg1)) := by
  show (cfg0.win 4).cut (grid0.coords t) ((dats m 0 c).after 4 t) = _
  rw [after0_4]
  unfold out0_4
  rw [View.canon_unit_zero hz3]
  simp only [View.ld_unit_zero (S := S8x19x64x512) hz4, View.ld_unit_zero (S := S8x64x512) hz3]
  funext j
  obtain ⟨a, n, k, rfl⟩ : ∃ (a : Fin 1) (n : Fin 8) (k : Fin 19), j = ix3 a n k := ⟨j 0, j 1, j 2, eq_ix3 j⟩
  show k0_pay5 (F := Ideal) (iblk m c 1 t) (ix3 a n k) = GH (V m c main_arg1) (((cfg0.win 4).blk t).view.emb (ix3 a n k))
  have hemb : ((cfg0.win 4).blk t).view.emb (ix3 a n k) = ix3 (tileOf t) n k := by
    obtain ⟨-, -, -, -, -, -, -, e2, e3, e4⟩ := idx_facts t
    have ha : a.val = 0 := by omega
    funext b; apply Fin.ext
    match b with
    | ⟨0, _⟩ => show win0_4.index t (0 : Fin 3) * 1 + 1 * a.val = t.val; omega
    | ⟨1, _⟩ => show win0_4.index t (1 : Fin 3) * 8 + 1 * n.val = n.val; omega
    | ⟨2, _⟩ => show win0_4.index t (2 : Fin 3) * 19 + 1 * k.val = k.val; omega
  rw [hemb]
  show _ = Dice.hotTile (V m c main_arg1) (tileOf t) n k
  refine (Pay.pay5_at (iblk m c 1 t) a n k).trans ?_
  unfold Dice.hotTile
  refine Finset.sum_congr rfl fun r _ => Finset.sum_congr rfl fun w _ => ?_
  rw [Pay.pay2_at (iblk m c 1 t) n k r w, blk1_read m c t n r w]
  rfl

/-- An index of window 4's array is in point `t`'s block iff each coordinate is in the block's range on its axis. -/
theorem mem_blk4 (t : Fin cfg0.N) (i : S8x8x19.Idx) :
    i ∈ ((cfg0.win 4).blk t).view.set ↔ ∀ a : Fin 3, win0_4.index t a * S1x8x19.size a ≤ (i a).val ∧ (i a).val < win0_4.index t a * S1x8x19.size a + S1x8x19.size a := by
  show i ∈ ((View.whole main_v0_2).slice (win0_4.rect t)).set ↔ _
  rw [View.set_slice_whole, Rect.mem_set_unit]
  exact Iff.rfl

/-- Every index of window 4's array is in the block of the point its tile coordinate names. -/
theorem cover4 (i : S8x8x19.Idx) : ∃ t : Fin cfg0.N, (cfg0.win 4).flush t = true ∧ i ∈ ((cfg0.win 4).blk t).view.set := by
  have hi0 : (i 0).val < 8 := (i 0).isLt
  have hi1 : (i 1).val < 8 := (i 1).isLt
  have hi2 : (i 2).val < 19 := (i 2).isLt
  refine ⟨pointOf (i 0), flush0_4 _, ?_⟩
  rw [mem_blk4]
  obtain ⟨-, -, -, -, -, -, -, e2, e3, e4⟩ := idx_facts (pointOf (i 0))
  have hp : (pointOf (i 0)).val = (i 0).val := rfl
  intro a
  match a with
  | ⟨0, _⟩ => show win0_4.index (pointOf (i 0)) (0 : Fin 3) * 1 ≤ (i 0).val ∧ (i 0).val < win0_4.index (pointOf (i 0)) (0 : Fin 3) * 1 + 1; omega
  | ⟨1, _⟩ => show win0_4.index (pointOf (i 0)) (1 : Fin 3) * 8 ≤ (i 1).val ∧ (i 1).val < win0_4.index (pointOf (i 0)) (1 : Fin 3) * 8 + 8; omega
  | ⟨2, _⟩ => show win0_4.index (pointOf (i 0)) (2 : Fin 3) * 19 ≤ (i 2).val ∧ (i 2).val < win0_4.index (pointOf (i 0)) (2 : Fin 3) * 19 + 19; omega

/-- THE ARRAY of window 4 after the run. -/
theorem final4 (c : Dev nD) : (dats m 0 c).arrAt 4 cfg0.N = GH (V m c main_arg1) :=
  (dats m 0 c).arrAt_eq_of_cover 4 (GH (V m c main_arg1)) (fun t _ => flushed4_eq m c t) cover4

end Cert.KernelIdeal.Arrays

end
-- ==== Proof.Tail.lean ====
/-
  The last stretch of the Dice loss, shared by both programs: from the three per-sample per-class sums
  `I` (softmax · one-hot), `P` (softmax) and `H` (one-hot), each of shape [8, 19], to the scalar

      (∑ c, (∑ n, (1 - (2 · I + 1) / ((P + H) + 1))) / 8) / 19

  written with the host's operations in the order both programs apply them. It is kept as one function: the two
  programs agree because they feed it equal arguments, and nothing about its inside is used.
-/
import Idealize.ShloMosaic.PureOps
import Idealize.ShloMosaic.PureOps.Ideal
import proofs.«167427_j54425825575360_1_alg».proof.Proof.Spec

noncomputable section

namespace Cert.Dice

open Idealize.ShloMosaic

abbrev T8x19 : Shape := ⟨2, ![8, 19]⟩
abbrev T19 : Shape := ⟨1, ![19]⟩
abbrev T0 : Shape := ⟨0, ![]⟩

theorem t0_pos : 0 < T0.numel := by decide
theorem bcast_T0_T8x19 : T0.BroadcastsInDim T8x19 (![] : Fin 0 → Fin T8x19.rank) := by decide
theorem bcast_T0_T19 : T0.BroadcastsInDim T19 (![] : Fin 0 → Fin T19.rank) := by decide
theorem reducesTo_T8x19_T19 : T8x19.ReducesTo [0] T19 := by decide
theorem reducesTo_T19_T0 : T19.ReducesTo [0] T0 := by decide

/-- The loss from the three per-sample per-class sums. -/
def lossTail (I P H : FVec Ideal T8x19 .f32) : FVec Ideal T0 .f32 :=
  Host.divf (F := Ideal)
    (Host.reduceAdd (F := Ideal)
      (Host.divf (F := Ideal)
        (Host.reduceAdd (F := Ideal)
          (subf (broadcastInDim T8x19 ![] bcast_T0_T8x19 (constant (F := Ideal) T0 .f32 0x3F800000#32))
            (Host.divf (F := Ideal)
              (addf (mulf (broadcastInDim T8x19 ![] bcast_T0_T8x19 (constant (F := Ideal) T0 .f32 0x40000000#32)) I)
                (broadcastInDim T8x19 ![] bcast_T0_T8x19 (constant (F := Ideal) T0 .f32 0x3F800000#32)))
              (addf (addf P H) (broadcastInDim T8x19 ![] bcast_T0_T8x19 (constant (F := Ideal) T0 .f32 0x3F800000#32)))))
          (constant (F := Ideal) T0 .f32 0x00000000#32) reducesTo_T8x19_T19 t0_pos)
        (broadcastInDim T19 ![] bcast_T0_T19 (constant (F := Ideal) T0 .f32 0x41000000#32)))
      (constant (F := Ideal) T0 .f32 0x00000000#32) reducesTo_T19_T0 t0_pos)
    (constant (F := Ideal) T0 .f32 0x41980000#32)

/-- The three per-sample per-class sums as [8, 19] arrays. -/
def interArr (x : SP.Idx → EReal) (t : ST.Idx → BitVec 32) : FVec Ideal T8x19 .f32 := fun j => interSum x t (j 0) (j 1)
def probArr (x : SP.Idx → EReal) : FVec Ideal T8x19 .f32 := fun j => probSum x (j 0) (j 1)
def hotArr (t : ST.Idx → BitVec 32) : FVec Ideal T8x19 .f32 := fun j => hotSum t (j 0) (j 1)

/-- THE DICE LOSS of a prediction array and a target array, on the extended reals. -/
def loss (x : SP.Idx → EReal) (t : ST.Idx → BitVec 32) : FVec Ideal T0 .f32 :=
  lossTail (interArr x t) (probArr x) (hotArr t)

end Cert.Dice

end
-- ==== Proof.KernelRun.lean ====
/-
  The kernel program's run, read as a value.

  After the region, the host adds each output array over its tile axis: entry `(n, c)` of the result is the sum over
  the 8 tiles of the tile's sum, which is the sum over all 512 rows (a sum over 512 = 8 · 64 rows taken tile by tile) —
  the per-sample per-class sum over all pixels. The remaining host operations are the shared last stretch of the loss.
-/
import proofs.«167427_j54425825575360_1_alg».proof.Proof.Gen.KernelIdeal.Frame
import proofs.«167427_j54425825575360_1_alg».proof.Proof.KernelArrays
import proofs.«167427_j54425825575360_1_alg».proof.Proof.Tail
import Idealize.ShloMosaic.Lib.StableHlo.Run
import Idealize.ShloMosaic.PureOps.Ideal.Laws

set_option maxRecDepth 16384

noncomputable section

open scoped BigOperators

namespace Cert.KernelIdeal.RunValue

open Idealize.ShloMosaic Idealize.ShloMosaic.TcCoe Idealize.ShloMosaic.ValueIdx Idealize.SL.Sem Idealize.ShloMosaic.StableHlo
open Cert.KernelIdeal Cert.KernelIdeal.Gen Cert.KernelIdeal.Arrays

/-- The host's sum over the tile axis, at `(n, c)`: its initial value plus the sum over the 8 tiles. -/
theorem host_sum_tiles (y : FVec Ideal S8x8x19 .f32) (init : S_.Idx → EReal) (n : Fin 8) (c : Fin 19) :
    Host.reduceAdd y init reducesTo_S8x8x19_S8x19_d0 h_S_ (ix2 n c)
      = init (Shape.Idx.first h_S_) + ∑ t : Fin 8, y (ix3 t n c) := by
  simp only [Host.reduceAdd, Ideal.hostReduceAdd_def]
  rw [Ideal.hostReduceAdd_single reducesTo_S8x8x19_S8x19_d0 (by decide)]
  refine congrArg (_ + ·) (Finset.sum_congr rfl fun t _ => congrArg y (funext fun a => Fin.ext ?_))
  match a with | ⟨0, _⟩ => rfl | ⟨1, _⟩ => rfl | ⟨2, _⟩ => rfl

/-- The tile sums, added over the tiles, are the sums over all pixels. -/
theorem inter_arr (x : Dice.SP.Idx → EReal) (tg : Dice.ST.Idx → BitVec 32) :
    Host.reduceAdd (F := Ideal) (GI x tg) (constant (F := Ideal) S_ .f32 0x00000000#32) reducesTo_S8x8x19_S8x19_d0 h_S_
      = Dice.interArr x tg := by
  funext j
  obtain ⟨n, c, rfl⟩ : ∃ (n : Fin 8) (c : Fin 19), j = ix2 n c := ⟨j 0, j 1, eq_ix2 j⟩
  rw [host_sum_tiles, constant_apply, Ideal.ofBits_zero_f32, zero_add]
  show ∑ t : Fin 8, Dice.interTile x tg t n c = Dice.interSum x tg n c
  unfold Dice.interTile Dice.interSum
  exact (Cert.LibSums.sum_by_tiles (T := 8) (R := 64) (N := 512) rfl
    (fun h => ∑ w : Fin 512, Dice.prob x n c h w * Dice.hot tg n c h w)).symm

theorem prob_arr (x : Dice.SP.Idx → EReal) :
    Host.reduceAdd (F := Ideal) (GP x) (constant (F := Ideal) S_ .f32 0x00000000#32) reducesTo_S8x8x19_S8x19_d0 h_S_
      = Dice.probArr x := by
  funext j
  obtain ⟨n, c, rfl⟩ : ∃ (n : Fin 8) (c : Fin 19), j = ix2 n c := ⟨j 0, j 1, eq_ix2 j⟩
  rw [host_sum_tiles, constant_apply, Ideal.ofBits_zero_f32, zero_add]
  show ∑ t : Fin 8, Dice.probTile x t n c = Dice.probSum x n c
  unfold Dice.probTile Dice.probSum
  exact (Cert.LibSums.sum_by_tiles (T := 8) (R := 64) (N := 512) rfl
    (fun h => ∑ w : Fin 512, Dice.prob x n c h w)).symm

theorem hot_arr (tg : Dice.ST.Idx → BitVec 32) :
    Host.reduceAdd (F := Ideal) (GH tg) (constant (F := Ideal) S_ .f32 0x00000000#32) reducesTo_S8x8x19_S8x19_d0 h_S_
      = Dice.hotArr tg := by
  funext j
  obtain ⟨n, c, rfl⟩ : ∃ (n : Fin 8) (c : Fin 19), j = ix2 n c := ⟨j 0, j 1, eq_ix2 j⟩
  rw [host_sum_tiles, constant_apply, Ideal.ofBits_zero_f32, zero_add]
  show ∑ t : Fin 8, Dice.hotTile tg t n c = Dice.hotSum tg n c
  unfold Dice.hotTile Dice.hotSum
  exact (Cert.LibSums.sum_by_tiles (T := 8) (R := 64) (N := 512) rfl
    (fun h => ∑ w : Fin 512, Dice.hot tg n c h w)).symm

variable (m : (ℓ : Loc nD τ sig) → Buf (Elt Ideal) ℓ) (ρ : Dev nD → PrngReg)

/-- The result buffer is no array of the region's windows. -/
theorem v18_no_array : ∀ w : Fin 5, (spec0 w).arr.view.ref ≠ main_v18 := by decide

/-- What the host operations after the region leave in the result buffer: the loss of the argument arrays. -/
theorem tail_eq (c : Dev nD) :
    Pipeline.afterTail₀ cfgs (dats m) 0 (V0 m) [hostOps1] c main_v18
      = Dice.loss (m ((c.tc : Thread nD τ).loc main_arg0)) (m ((c.tc : Thread nD τ).loc main_arg1)) := by
  have e2 : Pipeline.withArrays spec0 c (V0 m c) (fun w => (dats m 0 c).arrAt w cfg0.N) (Proc.devRef .tc main_v0_0)
      = GI (V m c main_arg0) (V m c main_arg1) :=
    (Pipeline.withArrays_arr spec0 launch0.win.arr_inj c (V0 m c) (fun w => (dats m 0 c).arrAt w cfg0.N) 2).trans (final2 m c)
  have e3 : Pipeline.withArrays spec0 c (V0 m c) (fun w => (dats m 0 c).arrAt w cfg0.N) (Proc.devRef .tc main_v0_1)
      = GP (V m c main_arg0) :=
    (Pipeline.withArrays_arr spec0 launch0.win.arr_inj c (V0 m c) (fun w => (dats m 0 c).arrAt w cfg0.N) 3).trans (final3 m c)
  have e4 : Pipeline.withArrays spec0 c (V0 m c) (fun w => (dats m 0 c).arrAt w cfg0.N) (Proc.devRef .tc main_v0_2)
      = GH (V m c main_arg1) :=
    (Pipeline.withArrays_arr spec0 launch0.win.arr_inj c (V0 m c) (fun w => (dats m 0 c).arrAt w cfg0.N) 4).trans (final4 m c)
  unfold Pipeline.afterTail₀
  show StableHlo.after hostOps1 (Pipeline.withArrays spec0 c (V0 m c) (fun w => (dats m 0 c).arrAt w cfg0.N))
    (Proc.devRef .tc main_v18) = _
  generalize Pipeline.withArrays spec0 c (V0 m c) (fun w => (dats m 0 c).arrAt w cfg0.N) = W at e2 e3 e4 ⊢
  after_results_simp
  rw [e2, e3, e4]
  show Dice.lossTail
      (Host.reduceAdd (F := Ideal) (GI (V m c main_arg0) (V m c main_arg1)) (constant (F := Ideal) S_ .f32 0x00000000#32) reducesTo_S8x8x19_S8x19_d0 h_S_)
      (Host.reduceAdd (F := Ideal) (GP (V m c main_arg0)) (constant (F := Ideal) S_ .f32 0x00000000#32) reducesTo_S8x8x19_S8x19_d0 h_S_)
      (Host.reduceAdd (F := Ideal) (GH (V m c main_arg1)) (constant (F := Ideal) S_ .f32 0x00000000#32) reducesTo_S8x8x19_S8x19_d0 h_S_) = _
  rw [inter_arr, prob_arr, hot_arr]
  rfl

/-- THE KERNEL PROGRAM'S RUN: every weakly fair execution terminates with the result buffer at the loss of the argument
    arrays, the arguments unchanged. -/
theorem run : θ_run defs (onTc (τ := τ) (main (F := Ideal))) ⟨m, fun _ => 0, ρ⟩ fun r => ∀ c : Dev nD,
      r.2.mem ((c.tc : Thread nD τ).loc main_v18)
        = Dice.loss (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v18 (Pipeline.mem_restRefs_of main_v18 rfl v18_no_array)).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.RunValue

end
-- ==== Proof.RefPoint.lean ====
/-
  The reference's stages at one index, on the extended reals.

  The reference takes the softmax over the class axis of the whole prediction array and the one-hot of the whole
  target array, and sums softmax · one-hot, softmax and one-hot over the two pixel axes. Its maximum along the class
  axis is followed by one more `max` with -∞, which changes nothing: the fold already starts from -∞. Each of the
  three sums, at `(n, c)`, is the host's initial value (the zero word) plus the double sum over rows and columns.
-/
import proofs.«167427_j54425825575360_1_alg».proof.Proof.Gen.ReferenceIdeal.Read
import proofs.«167427_j54425825575360_1_alg».proof.Proof.Spec
import proofs.«167427_j54425825575360_1_alg».proof.Proof.LibSums
import Idealize.ShloMosaic.Lib.Pipeline.Value
import Idealize.ShloMosaic.Lib.ValueIdx
import Idealize.ShloMosaic.PureOps.Ideal.Laws

noncomputable section

open scoped BigOperators

namespace Cert.ReferenceIdeal.RefPoint

open Idealize.ShloMosaic Idealize.ShloMosaic.ValueIdx Cert.ReferenceIdeal Cert.ReferenceIdeal.Gen Cert.ReferenceIdeal.Read

/-- The reference's class-axis maximum (with its extra `max` against -∞) at pixel `(n, h, w)`. -/
theorem max_at (x0 : FVec Ideal S8x19x512x512 .f32) (n : Fin 8) (h w : Fin 512) :
    val_main_v2 (F := Ideal) x0 (ix3 n h w) = Dice.colMax (fun k => x0 (ix4 n k h w)) := by
  have h0 : val_main_v0 (F := Ideal) x0 (ix3 n h w) = Dice.colMax (fun k => x0 (ix4 n k h w)) := by
    unfold val_main_v0
    rw [Host.reduce_eq_fold_single FloatOps.maximumf x0 (val_main_cst (F := Ideal))
      reducesTo_S8x19x512x512_S8x512x512_d1 (by decide) h_S_ (ix3 n h w), val_main_cst_apply, Ideal.ofBits_def]
    unfold Dice.colMax
    refine congrArg (fun f : Fin 19 → EReal => (Finset.univ : Finset (Fin 19)).fold max (Ideal.ofBits .f32 0xFF800000#32) f)
      (funext fun k => congrArg x0 (funext fun a => Fin.ext ?_))
    match a with | ⟨0, _⟩ => rfl | ⟨1, _⟩ => rfl | ⟨2, _⟩ => rfl | ⟨3, _⟩ => rfl
  rw [val_main_v2_apply, val_main_v1_apply, val_main_cst_0_apply, h0, Ideal.maximumf_def, Ideal.ofBits_def]
  unfold Dice.colMax
  exact max_eq_right ((Finset.le_fold_max _).2 (Or.inl le_rfl))

/-- The reference's exponentials: of each score minus its pixel's largest. -/
theorem exp_at (x0 : FVec Ideal S8x19x512x512 .f32) (n : Fin 8) (k : Fin 19) (h w : Fin 512) :
    val_main_v6 (F := Ideal) x0 (ix4 n k h w) = Ideal.exp (x0 (ix4 n k h w) - Dice.colMax (fun k' => x0 (ix4 n k' h w))) := by
  have e : idx_main_v3 (idx_main_v4 (ix4 n k h w)) = ix3 n h w := by
    funext a; apply Fin.ext; match a with | ⟨0, _⟩ => rfl | ⟨1, _⟩ => rfl | ⟨2, _⟩ => rfl
  rw [val_main_v6_apply, val_main_v5_apply, val_main_v4_apply, val_main_v3_apply, e, max_at,
    Ideal.hostUnary_exp_def, Ideal.subf_def]

/-- THE REFERENCE'S SOFTMAX at `(n, c, h, w)`. -/
theorem prob_at (x0 : FVec Ideal S8x19x512x512 .f32) (n : Fin 8) (c : Fin 19) (h w : Fin 512) :
    val_main_v10 (F := Ideal) x0 (ix4 n c h w) = Dice.prob x0 n c h w := by
  have e : idx_main_v8 (idx_main_v9 (ix4 n c h w)) = ix3 n h w := by
    funext a; apply Fin.ext; match a with | ⟨0, _⟩ => rfl | ⟨1, _⟩ => rfl | ⟨2, _⟩ => rfl
  have e7 : ∀ k : Fin 19, idx_main_v7 (ix3 n h w) k = ix4 n k h w := fun k => by
    funext a; apply Fin.ext; match a with | ⟨0, _⟩ => rfl | ⟨1, _⟩ => rfl | ⟨2, _⟩ => rfl | ⟨3, _⟩ => rfl
  rw [val_main_v10_apply, val_main_v9_apply, val_main_v8_apply, e, val_main_v7_apply, val_main_cst_1_apply,
    Ideal.ofBits_def, Ideal.ofBits_zero_f32, zero_add, Ideal.hostDivf_def, exp_at]
  unfold Dice.prob Dice.softmaxAt
  refine congrArg (Ideal.div _) (Finset.sum_congr rfl fun k _ => ?_)
  rw [e7 k, exp_at]

/-- THE REFERENCE'S ONE-HOT at `(n, c, h, w)`. -/
theorem hot_at (x1 : IVec S8x512x512 32) (n : Fin 8) (c : Fin 19) (h w : Fin 512) :
    val_main_v17 (F := Ideal) x1 (ix4 n c h w) = Dice.hot x1 n c h w := by
  show FloatOps.uitofp (F := Ideal) .f32 (IntOp.cmpi .eq (val_main_v14 (F := Ideal) x1 (ix4 n c h w)) (val_main_v15 (F := Ideal) (ix4 n c h w))) = _
  rw [val_main_v14_apply, val_main_v11_apply, val_main_v15_apply, val_main_v13_apply, val_main_v12_apply]
  have e : idx_main_v11 (idx_main_v14 (ix4 n c h w)) = ix3 n h w := by
    funext a; apply Fin.ext; match a with | ⟨0, _⟩ => rfl | ⟨1, _⟩ => rfl | ⟨2, _⟩ => rfl
  rw [e]
  rfl

/-- The host's sum over the two pixel axes, at `(n, c)`: its initial value plus the double sum. -/
theorem host_sum_pixels (y : FVec Ideal S8x19x512x512 .f32) (init : S_.Idx → EReal) (n : Fin 8) (c : Fin 19) :
    Host.reduceAdd y init reducesTo_S8x19x512x512_S8x19_d2_3 h_S_ (ix2 n c)
      = init (Shape.Idx.first h_S_) + ∑ h : Fin 512, ∑ w : Fin 512, y (ix4 n c h w) := by
  simp only [Host.reduceAdd, Ideal.hostReduceAdd_def]
  unfold Ideal.hostReduceAdd
  rw [Shape.ReducesTo.drop_eq_drop reducesTo_S8x19x512x512_S8x19_d2_3 (by decide : S8x19x512x512.Reduces [2, 3] S8x19)]
  exact congrArg (_ + ·) (Cert.LibSums.sum_filter_drop_last2 _ y n c)

/-- THE REFERENCE'S THREE SUMS at `(n, c)`. -/
theorem inter_at (x0 : FVec Ideal S8x19x512x512 .f32) (x1 : IVec S8x512x512 32) (n : Fin 8) (c : Fin 19) :
    val_main_v19 (F := Ideal) x0 x1 (ix2 n c) = Dice.interSum x0 x1 n c := by
  unfold val_main_v19
  rw [host_sum_pixels, val_main_cst_2_apply, Ideal.ofBits_def, Ideal.ofBits_zero_f32, zero_add]
  unfold Dice.interSum
  refine Finset.sum_congr rfl fun h _ => Finset.sum_congr rfl fun w _ => ?_
  rw [val_main_v18_apply, Ideal.mulf_def, prob_at, hot_at]

theorem probSum_at (x0 : FVec Ideal S8x19x512x512 .f32) (n : Fin 8) (c : Fin 19) :
    val_main_v20 (F := Ideal) x0 (ix2 n c) = Dice.probSum x0 n c := by
  unfold val_main_v20
  rw [host_sum_pixels, val_main_cst_3_apply, Ideal.ofBits_def, Ideal.ofBits_zero_f32, zero_add]
  unfold Dice.probSum
  exact Finset.sum_congr rfl fun h _ => Finset.sum_congr rfl fun w _ => prob_at x0 n c h w

theorem hotSum_at (x1 : IVec S8x512x512 32) (n : Fin 8) (c : Fin 19) :
    val_main_v21 (F := Ideal) x1 (ix2 n c) = Dice.hotSum x1 n c := by
  unfold val_main_v21
  rw [host_sum_pixels, val_main_cst_4_apply, Ideal.ofBits_def, Ideal.ofBits_zero_f32, zero_add]
  unfold Dice.hotSum
  exact Finset.sum_congr rfl fun h _ => Finset.sum_congr rfl fun w _ => hot_at x1 n c h w

end Cert.ReferenceIdeal.RefPoint

end
-- ==== Proof.RefRun.lean ====
/-
  The reference program's result, read as a value: its three sums over the pixel axes are the per-sample per-class
  sums, and the rest of its operations are the shared last stretch of the loss.
-/
import proofs.«167427_j54425825575360_1_alg».proof.Proof.Gen.ReferenceIdeal.Read
import proofs.«167427_j54425825575360_1_alg».proof.Proof.RefPoint
import proofs.«167427_j54425825575360_1_alg».proof.Proof.Tail

noncomputable section

namespace Cert.ReferenceIdeal.RefValue

open Idealize.ShloMosaic Idealize.ShloMosaic.ValueIdx Cert.ReferenceIdeal Cert.ReferenceIdeal.Gen Cert.ReferenceIdeal.Read

theorem inter_arr (x0 : FVec Ideal S8x19x512x512 .f32) (x1 : IVec S8x512x512 32) :
    val_main_v19 (F := Ideal) x0 x1 = Dice.interArr x0 x1 := by
  funext j
  obtain ⟨n, c, rfl⟩ : ∃ (n : Fin 8) (c : Fin 19), j = ix2 n c := ⟨j 0, j 1, eq_ix2 j⟩
  exact (RefPoint.inter_at x0 x1 n c).trans rfl

theorem prob_arr (x0 : FVec Ideal S8x19x512x512 .f32) : val_main_v20 (F := Ideal) x0 = Dice.probArr x0 := by
  funext j
  obtain ⟨n, c, rfl⟩ : ∃ (n : Fin 8) (c : Fin 19), j = ix2 n c := ⟨j 0, j 1, eq_ix2 j⟩
  exact (RefPoint.probSum_at x0 n c).trans rfl

theorem hot_arr (x1 : IVec S8x512x512 32) : val_main_v21 (F := Ideal) x1 = Dice.hotArr x1 := by
  funext j
  obtain ⟨n, c, rfl⟩ : ∃ (n : Fin 8) (c : Fin 19), j = ix2 n c := ⟨j 0, j 1, eq_ix2 j⟩
  exact (RefPoint.hotSum_at x1 n c).trans rfl

/-- The operations after the three sums are the shared last stretch, applied to them. -/
theorem tail_of_sums (x0 : FVec Ideal S8x19x512x512 .f32) (x1 : IVec S8x512x512 32) :
    val_main_v36 (F := Ideal) x0 x1
      = Dice.lossTail (val_main_v19 (F := Ideal) x0 x1) (val_main_v20 (F := Ideal) x0) (val_main_v21 (F := Ideal) x1) := by
  unfold val_main_v36 val_main_v35 val_main_v34 val_main_v33 val_main_v32 val_main_v31 val_main_v30 val_main_v29
    val_main_v28 val_main_v27 val_main_v26 val_main_v25 val_main_v24 val_main_v23 val_main_v22
    val_main_cst_12 val_main_cst_11 val_main_cst_10 val_main_cst_9 val_main_cst_8 val_main_cst_7 val_main_cst_6 val_main_cst_5
  rfl

/-- THE REFERENCE'S RESULT is the loss of its argument arrays. -/
theorem result_eq (x0 : FVec Ideal S8x19x512x512 .f32) (x1 : IVec S8x512x512 32) :
    val_main_v36 (F := Ideal) x0 x1 = Dice.loss x0 x1 := by
  rw [tail_of_sums, inter_arr, prob_arr, hot_arr]
  rfl

end Cert.ReferenceIdeal.RefValue

end
-- ==== Proof.lean ====
/-
  The certificate of the Dice loss kernel against its jnp reference, on the extended reals.

  Both programs compute, from a prediction array `x` of shape [8, 19, 512, 512] and a target array `t` of shape
  [8, 512, 512], the softmax of `x` along the class axis, the one-hot of `t`, the sums over all pixels of
  softmax · one-hot, softmax and one-hot for every sample and class, and from those three [8, 19] arrays one scalar.
  The kernel takes the pixel sums in two steps — over the 64 rows and 512 columns of each of 8 row tiles inside the
  region, then over the tiles on the host — where the reference takes them at once; a finite sum on the extended reals
  does not depend on how it is grouped, so the two agree, and nothing about the inputs' finiteness is needed.
  The three frames are the generated ones; the kernel's idealization rewrote nothing.
-/
import proofs.«167427_j54425825575360_1_alg».proof.Defs
import proofs.«167427_j54425825575360_1_alg».proof.Proof.Gen.Kernel
import proofs.«167427_j54425825575360_1_alg».proof.Proof.Gen.Kernel.Skeleton
import proofs.«167427_j54425825575360_1_alg».proof.Proof.Gen.Kernel.Launch
import proofs.«167427_j54425825575360_1_alg».proof.Proof.Gen.Kernel.Points
import proofs.«167427_j54425825575360_1_alg».proof.Proof.Gen.Kernel.Frame
import proofs.«167427_j54425825575360_1_alg».proof.Proof.Gen.KernelIdeal
import proofs.«167427_j54425825575360_1_alg».proof.Proof.Gen.KernelIdeal.Skeleton
import proofs.«167427_j54425825575360_1_alg».proof.Proof.Gen.KernelIdeal.Launch
import proofs.«167427_j54425825575360_1_alg».proof.Proof.Gen.KernelIdeal.Points
import proofs.«167427_j54425825575360_1_alg».proof.Proof.Gen.KernelIdeal.Frame
import proofs.«167427_j54425825575360_1_alg».proof.Proof.Gen.ReferenceIdeal
import proofs.«167427_j54425825575360_1_alg».proof.Proof.Gen.ReferenceIdeal.Run
import proofs.«167427_j54425825575360_1_alg».proof.Proof.Gen.ReferenceIdeal.Read
import proofs.«167427_j54425825575360_1_alg».proof.Proof.Gen.Pre_finite_inputs
import proofs.«167427_j54425825575360_1_alg».proof.Proof.KernelRun
import proofs.«167427_j54425825575360_1_alg».proof.Proof.RefRun
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the two argument arrays, both programs end with the result buffer at the loss of
    those arrays. -/
theorem algebraic : Cert.algebraic_KernelIdeal_ReferenceIdeal := by
  intro m ρ m' ρ' _ hagree
  refine ⟨fun c => Cert.Dice.loss (m ((c.tc : Thread Cert.KernelIdeal.nD Cert.KernelIdeal.τ).loc Cert.KernelIdeal.main_arg0))
    (m ((c.tc : Thread Cert.KernelIdeal.nD Cert.KernelIdeal.τ).loc Cert.KernelIdeal.main_arg1)),
    Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v36_eq, Cert.ReferenceIdeal.RefValue.result_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
